-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S50000x128 : Shape := ⟨2, ![50000, 128]⟩
abbrev S2000x512 : Shape := ⟨2, ![2000, 512]⟩
abbrev S2000x128 : Shape := ⟨2, ![2000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x1 : Shape := ⟨2, ![1, 1]⟩
abbrev S5000x128 : Shape := ⟨2, ![5000, 128]⟩
abbrev S50000x1 : Shape := ⟨2, ![50000, 1]⟩

abbrev nBuf : Space → Nat
  | .hbm => 77
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S50000x128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S1x128, .f32⟩
  | .hbm, ⟨67, _⟩ => ⟨S_, .i32⟩
  | .hbm, ⟨68, _⟩ => ⟨S_, .f32⟩
  | .hbm, ⟨69, _⟩ => ⟨S128x128, .f32⟩
  | .hbm, ⟨70, _⟩ => ⟨S1x1, .f32⟩
  | .hbm, ⟨71, _⟩ => ⟨S_, .i32⟩
  | .hbm, ⟨72, _⟩ => ⟨S_, .f32⟩
  | .hbm, ⟨73, _⟩ => ⟨S1x128, .f32⟩
  | .hbm, ⟨74, _⟩ => ⟨S50000x128, .f32⟩
  | .hbm, ⟨75, _⟩ => ⟨S50000x1, .f32⟩
  | .hbm, ⟨76, _⟩ => ⟨S50000, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_call2_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  pads_S128x1_S128x128_000_01270 : S128x1.Pads (![0, 0] : Fin 2 → Nat) ![0, 127] ![0, 0] S128x128
  h_S_ : 0 < S_.numel
  shapeCasts_S1_S1x1 : S1.ShapeCasts S1x1
  pads_S1x1_S1x128_000_01270 : S1x1.Pads (![0, 0] : Fin 2 → Nat) ![0, 127] ![0, 0] S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x1_0_0 : S50000x128.Slices ![0, 0] S50000x1
  shapeCasts_S50000x1_S50000 : S50000x1.ShapeCasts S50000
  dot_S2000x512_S512x128_S2000x128_1_0_0_1_n_n_wf : DotDims.WF S2000x512 S512x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S50000x128 : Shape := ⟨2, ![50000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S50000x128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x1, .f32⟩
  | .hbm, ⟨79, _⟩ => ⟨S1x1, .f32⟩
  | .hbm, ⟨80, _⟩ => ⟨S50000x1, .f32⟩
  | .hbm, ⟨81, _⟩ => ⟨S50000x1, .f32⟩
  | .hbm, ⟨82, _⟩ => ⟨S50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel program's run with its result named.

  The program is two kernel regions among stretches of host operations. Its frame proof walks the buffer contents
  from the launch memory through every stretch and region to the last boundary (`W9`); the same walk, read at the
  result buffer instead of at the argument buffers only, says that every weakly fair execution ends with the result
  buffer at the last boundary's contents of it, the arguments unchanged.
-/
import proofs.«170320_j66838281061190_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v51) = W9 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v51 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Hand

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Head.lean ====
/-
  A graph-convolution head on the extended reals, entry by entry.

  For aggregated features `agg : [n, H]` the head is
      rect(agg + bg) · w1  →  rect(· + b1) · w2 + b2,
  where a one-row array is added to every row, `rect` is the larger of an entry and the zero word's value, and a
  matrix product's entry (r, j) is the finite sum over k of (row r, entry k) times (entry k, column j).
  Entry (r, j) of the result reads row r of `agg`, column j of `w2` and entry j of `b2` only, and that is all
  that is proved here: two heads whose operands agree on that row, that column and that entry have that entry in
  common. A sum on the extended reals is a sum in a commutative monoid, so nothing here needs finiteness.
-/
import proofs.«170320_j66838281061190_1_alg».proof.Proof.LibDense

noncomputable section

namespace Cert.Head

open Idealize.ShloMosaic Idealize.ShloMosaic.ValueIdx Cert.LibDense

/-- The value of the float word 0.0. -/
abbrev zero : EReal := Ideal.ofBits .f32 0x00000000#32

/-- A one-row array added to every row of `a`, then the rectifier: entry (r, j) is `max (a (r, j) + b (0, j)) 0`. -/
def rect {n d : ℕ} (a : (⟨2, ![n, d]⟩ : Shape).Idx → EReal) (b : (⟨2, ![1, d]⟩ : Shape).Idx → EReal) :
    (⟨2, ![n, d]⟩ : Shape).Idx → EReal :=
  fun i => max (a i + b (ix2 ⟨0, Nat.one_pos⟩ (i 1))) zero

/-- The head: `rect (rect (agg + bg) · w1 + b1) · w2 + b2`. -/
def head {n H K d : ℕ} (agg : (⟨2, ![n, H]⟩ : Shape).Idx → EReal) (bg : (⟨2, ![1, H]⟩ : Shape).Idx → EReal)
    (w1 : (⟨2, ![H, K]⟩ : Shape).Idx → EReal) (b1 : (⟨2, ![1, K]⟩ : Shape).Idx → EReal)
    (w2 : (⟨2, ![K, d]⟩ : Shape).Idx → EReal) (b2 : (⟨2, ![1, d]⟩ : Shape).Idx → EReal) :
    (⟨2, ![n, d]⟩ : Shape).Idx → EReal :=
  fun i => prod (rect (prod (rect agg bg) w1) b1) w2 i + b2 (ix2 ⟨0, Nat.one_pos⟩ (i 1))

/-- An entry of a product reads one row of the left operand and one column of the right one. -/
theorem prod_congr {n n' K d d' : ℕ} (a : (⟨2, ![n, K]⟩ : Shape).Idx → EReal) (a' : (⟨2, ![n', K]⟩ : Shape).Idx → EReal)
    (w : (⟨2, ![K, d]⟩ : Shape).Idx → EReal) (w' : (⟨2, ![K, d']⟩ : Shape).Idx → EReal)
    (i : (⟨2, ![n, d]⟩ : Shape).Idx) (i' : (⟨2, ![n', d']⟩ : Shape).Idx)
    (ha : ∀ k : Fin K, a (ix2 (i 0) k) = a' (ix2 (i' 0) k)) (hw : ∀ k : Fin K, w (ix2 k (i 1)) = w' (ix2 k (i' 1))) :
    prod a w i = prod a' w' i' := by
  unfold prod
  exact Finset.sum_congr rfl fun k _ => congrArg₂ (· * ·) (ha k) (hw k)

/-- An entry of `rect a b` reads the same entry of `a`. -/
theorem rect_congr {n n' d : ℕ} (a : (⟨2, ![n, d]⟩ : Shape).Idx → EReal) (a' : (⟨2, ![n', d]⟩ : Shape).Idx → EReal)
    (b : (⟨2, ![1, d]⟩ : Shape).Idx → EReal) (r : Fin n) (r' : Fin n') (j : Fin d)
    (ha : a (ix2 r j) = a' (ix2 r' j)) : rect a b (ix2 r j) = rect a' b (ix2 r' j) := by
  show max (a (ix2 r j) + b (ix2 ⟨0, Nat.one_pos⟩ j)) zero = max (a' (ix2 r' j) + b (ix2 ⟨0, Nat.one_pos⟩ j)) zero
  rw [ha]

/-- Entry (r, j) of the head reads row r of `agg`, column j of `w2` and entry j of `b2`. -/
theorem head_congr {n n' H K d d' : ℕ} (agg : (⟨2, ![n, H]⟩ : Shape).Idx → EReal) (agg' : (⟨2, ![n', H]⟩ : Shape).Idx → EReal)
    (bg : (⟨2, ![1, H]⟩ : Shape).Idx → EReal) (w1 : (⟨2, ![H, K]⟩ : Shape).Idx → EReal) (b1 : (⟨2, ![1, K]⟩ : Shape).Idx → EReal)
    (w2 : (⟨2, ![K, d]⟩ : Shape).Idx → EReal) (w2' : (⟨2, ![K, d']⟩ : Shape).Idx → EReal)
    (b2 : (⟨2, ![1, d]⟩ : Shape).Idx → EReal) (b2' : (⟨2, ![1, d']⟩ : Shape).Idx → EReal)
    (r : Fin n) (r' : Fin n') (j : Fin d) (j' : Fin d')
    (hagg : ∀ l : Fin H, agg (ix2 r l) = agg' (ix2 r' l))
    (hw2 : ∀ k : Fin K, w2 (ix2 k j) = w2' (ix2 k j'))
    (hb2 : b2 (ix2 ⟨0, Nat.one_pos⟩ j) = b2' (ix2 ⟨0, Nat.one_pos⟩ j')) :
    head agg bg w1 b1 w2 b2 (ix2 r j) = head agg' bg w1 b1 w2' b2' (ix2 r' j') := by
  unfold head
  show prod _ w2 (ix2 r j) + b2 (ix2 ⟨0, Nat.one_pos⟩ j) = prod _ w2' (ix2 r' j') + b2' (ix2 ⟨0, Nat.one_pos⟩ j')
  rw [hb2]
  refine congrArg (· + _) (prod_congr _ _ w2 w2' (ix2 r j) (ix2 r' j') (fun k => ?_) hw2)
  exact rect_congr _ _ b1 r r' k
    (prod_congr (rect agg bg) (rect agg' bg) w1 w1 (ix2 r k) (ix2 r' k)
      (fun l => rect_congr agg agg' bg r r' l (hagg l)) (fun _ => rfl))

end Cert.Head

end
-- ==== Proof.Region1.lean ====
/-
  The second kernel region: the head, one block of 5000 rows of the aggregated features per grid point.

  At a point the body loads its block of the aggregate (5000 × 128) and the whole of the five small operands (a bias row,
  a 128 × 128 weight, a bias row, a 128 × 128 weight, a bias row) and stores
      rect (rect (agg + bg) · w1 + b1) · w2 + b2
  of them, each product the matrix unit's into a zero accumulator. Entry (r, j) of the stored block reads row r of the
  block of the aggregate only, which is row 5000 · t + r of the aggregate; the output's block sits at the same rows, and
  the 10 blocks tile the 50000 rows: the region leaves the head of its six operand arrays in its output array. Stated at
  any contents the region is entered with.
-/
import proofs.«170320_j66838281061190_1_alg».proof.Proof.Gen.KernelIdeal.Frame
import proofs.«170320_j66838281061190_1_alg».proof.Proof.Head
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-! ## The body's stored value -/

/-- A one-row block broadcast down 5000 rows, at (r, j), is its entry j. -/
theorem row_apply (b : Vec Ideal S1x128 .f32) (i : S5000x128.Idx) :
    broadcastTo S5000x128 b broadcasts_S1x128_S5000x128 i = b (ix2 ⟨0, Nat.one_pos⟩ (i 1)) := by
  refine broadcastTo_apply b _ i _ (fun a => ?_)
  match a with
  | ⟨0, _⟩ => exact (if_pos rfl).symm
  | ⟨1, _⟩ => show (i 1).val = if (128 : Nat) = 1 then 0 else (i 1).val; rw [if_neg (by decide)]

/-- A bias row added to every row, then the larger of the sum and the zero word's value. -/
theorem rect_eq (a : FVec Ideal S5000x128 .f32) (b : Vec Ideal S1x128 .f32) :
    maximumf (addf a (broadcastTo S5000x128 b broadcasts_S1x128_S5000x128))
      (broadcast S5000x128 (Scalar.ofBits (F := Ideal) .f32 0x00000000#32)) = Head.rect (n := 5000) (d := 128) a b := by
  funext i
  unfold Head.rect
  rw [maximumf_apply, addf_apply, row_apply, broadcast_apply]
  rfl

/-- The matrix unit's product into a zero accumulator is the row-by-column sum (a change of float format is the identity
    on the extended reals). -/
theorem mm (a : FVec Ideal S5000x128 .f32) (w : FVec Ideal S128x128 .f32) :
    matmul dot_S5000x128_S128x128_S5000x128_1_0_0_1_n_n none (truncf .bf16 a bitsLt_bf16_f32) (truncf .bf16 w bitsLt_bf16_f32)
      (constant S5000x128 .f32 0x00000000#32) = LibDense.prod (n := 5000) (K := 128) (d := 128) a w :=
  funext fun i => LibDense.matmul_plain (M := 5000) (K := 128) (N := 128) (φ₁ := .bf16) (φ₂ := .bf16) _ _ i

/-- The body's stored value is the head of its six loaded blocks. -/
theorem pay1 (x0 : Vec Ideal S5000x128 .f32) (x1 : Vec Ideal S1x128 .f32) (x2 : Vec Ideal S128x128 .f32)
    (x3 : Vec Ideal S1x128 .f32) (x4 : Vec Ideal S128x128 .f32) (x5 : Vec Ideal S1x128 .f32) :
    k1_pay1 x0 x1 x2 x3 x4 x5 = Head.head (n := 5000) (H := 128) (K := 128) (d := 128) x0 x1 x2 x3 x4 x5 := by
  unfold k1_pay1
  simp only [shapeCast_self]
  rw [rect_eq, mm, rect_eq, mm]
  funext i
  unfold Head.head
  rw [addf_apply, row_apply]

/-- Entry (r, j) of the head of a block of rows is the head of the whole array at the block's row. -/
theorem head_block (agg' : S5000x128.Idx → EReal) (agg : S50000x128.Idx → EReal) (bg : S1x128.Idx → EReal)
    (w1 : S128x128.Idx → EReal) (b1 : S1x128.Idx → EReal) (w2 : S128x128.Idx → EReal) (b2 : S1x128.Idx → EReal)
    (j : S5000x128.Idx) (i : S50000x128.Idx)
    (hrow : ∀ l : Fin 128, agg' (ix2 (j 0) l) = agg (ix2 (i 0) l)) (hcol : i 1 = j 1) :
    Head.head (n := 5000) (H := 128) (K := 128) (d := 128) agg' bg w1 b1 w2 b2 j
      = Head.head (n := 50000) (H := 128) (K := 128) (d := 128) agg bg w1 b1 w2 b2 i := by
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  obtain rfl : q' = q := hcol
  exact Head.head_congr agg' agg bg w1 b1 w2 w2 b2 b2 p p' q' q' hrow (fun _ => rfl) rfl

/-! ## The windows' blocks -/

/-- The printed index maps over the grid: the blocks of the aggregate and of the output move down the rows with the
    point, the five small operands' blocks are the whole of them. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The block of the aggregate at point `t`, at (r, l), is the aggregate at row 5000 · t + r. -/
theorem aggblock_apply (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v43 : S50000x128.Idx → EReal) i := by
  obtain ⟨e0, e1, -⟩ := index_facts1 t
  unfold iblk1
  rw [View.read_apply]
  show V c main_v43 _ = V c main_v43 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The first bias row's block at any point is the whole of it. -/
theorem bgblock (c : Dev nD) (t : Fin cfg1.N) :
    (iblk1 V c 1 t : Vec Ideal S1x128 .f32) = (V c main_v44 : S1x128.Idx → EReal) := by
  obtain ⟨-, -, a10, a11, a20, a21, a30, a31, a40, a41, a50, a51, -, -⟩ := index_facts1 t
  funext y
  unfold iblk1
  rw [View.read_apply]
  show V c main_v44 _ = V c main_v44 _
  congr 1
  funext a
  apply Fin.ext
  match a with
  | ⟨0, _⟩ => show win1_1.index t (0 : Fin 2) * 1 + 1 * (y 0).val = (y 0).val; rw [a10]; omega
  | ⟨1, _⟩ => show win1_1.index t (1 : Fin 2) * 128 + 1 * (y 1).val = (y 1).val; rw [a11]; omega

/-- The first weight's block at any point is the whole of it. -/
theorem w1block (c : Dev nD) (t : Fin cfg1.N) :
    (iblk1 V c 2 t : Vec Ideal S128x128 .f32) = (V c main_arg4 : S128x128.Idx → EReal) := by
  obtain ⟨-, -, a10, a11, a20, a21, a30, a31, a40, a41, a50, a51, -, -⟩ := index_facts1 t
  funext y
  unfold iblk1
  rw [View.read_apply]
  show V c main_arg4 _ = V c main_arg4 _
  congr 1
  funext a
  apply Fin.ext
  match a with
  | ⟨0, _⟩ => show win1_2.index t (0 : Fin 2) * 128 + 1 * (y 0).val = (y 0).val; rw [a20]; omega
  | ⟨1, _⟩ => show win1_2.index t (1 : Fin 2) * 128 + 1 * (y 1).val = (y 1).val; rw [a21]; omega

/-- The second bias row's block at any point is the whole of it. -/
theorem b1block (c : Dev nD) (t : Fin cfg1.N) :
    (iblk1 V c 3 t : Vec Ideal S1x128 .f32) = (V c main_v45 : S1x128.Idx → EReal) := by
  obtain ⟨-, -, a10, a11, a20, a21, a30, a31, a40, a41, a50, a51, -, -⟩ := index_facts1 t
  funext y
  unfold iblk1
  rw [View.read_apply]
  show V c main_v45 _ = V c main_v45 _
  congr 1
  funext a
  apply Fin.ext
  match a with
  | ⟨0, _⟩ => show win1_3.index t (0 : Fin 2) * 1 + 1 * (y 0).val = (y 0).val; rw [a30]; omega
  | ⟨1, _⟩ => show win1_3.index t (1 : Fin 2) * 128 + 1 * (y 1).val = (y 1).val; rw [a31]; omega

/-- The second weight's block at any point is the whole of it. -/
theorem w2block (c : Dev nD) (t : Fin cfg1.N) :
    (iblk1 V c 4 t : Vec Ideal S128x128 .f32) = (V c main_v46 : S128x128.Idx → EReal) := by
  obtain ⟨-, -, a10, a11, a20, a21, a30, a31, a40, a41, a50, a51, -, -⟩ := index_facts1 t
  funext y
  unfold iblk1
  rw [View.read_apply]
  show V c main_v46 _ = V c main_v46 _
  congr 1
  funext a
  apply Fin.ext
  match a with
  | ⟨0, _⟩ => show win1_4.index t (0 : Fin 2) * 128 + 1 * (y 0).val = (y 0).val; rw [a40]; omega
  | ⟨1, _⟩ => show win1_4.index t (1 : Fin 2) * 128 + 1 * (y 1).val = (y 1).val; rw [a41]; omega

/-- The third bias row's block at any point is the whole of it. -/
theorem b2block (c : Dev nD) (t : Fin cfg1.N) :
    (iblk1 V c 5 t : Vec Ideal S1x128 .f32) = (V c main_v48 : S1x128.Idx → EReal) := by
  obtain ⟨-, -, a10, a11, a20, a21, a30, a31, a40, a41, a50, a51, -, -⟩ := index_facts1 t
  funext y
  unfold iblk1
  rw [View.read_apply]
  show V c main_v48 _ = V c main_v48 _
  congr 1
  funext a
  apply Fin.ext
  match a with
  | ⟨0, _⟩ => show win1_5.index t (0 : Fin 2) * 1 + 1 * (y 0).val = (y 0).val; rw [a50]; omega
  | ⟨1, _⟩ => show win1_5.index t (1 : Fin 2) * 128 + 1 * (y 1).val = (y 1).val; rw [a51]; omega

/-! ## From blocks to the array -/

/-- What point `t` writes back is block `t` of the head of the six operand arrays. -/
theorem flushed1 (c : Dev nD) (t : Fin cfg1.N) :
    (dat1 V c).flushed 6 t = ((cfg1.win 6).blk t).view.read (Elt Ideal)
      (Head.head (n := 50000) (H := 128) (K := 128) (d := 128) (V c main_v43) (V c main_v44) (V c main_arg4) (V c main_v45)
        (V c main_v46) (V c main_v48)) := by
  show (cfg1.win 6).cut (grid1.coords t) ((dat1 V c).after 6 t) = _
  rw [after1_6]
  unfold out1_6
  rw [View.canon_unit_zero offsets_zero]
  simp only [View.ld_unit_zero (S := S5000x128) offsets_zero, View.ld_unit_zero (S := S1x128) offsets_zero,
    View.ld_unit_zero (S := S128x128) offsets_zero]
  rw [pay1, bgblock, w1block, b1block, w2block, b2block]
  obtain ⟨-, -, -, -, -, -, -, -, -, -, -, -, e60, e61⟩ := index_facts1 t
  funext j
  have hr : ((((cfg1.win 6).blk t).view.emb j) 0).val = t.val * 5000 + (j 0).val := by
    show win1_6.index t (0 : Fin 2) * 5000 + 1 * (j 0).val = _; rw [e60]; omega
  have hc : ((((cfg1.win 6).blk t).view.emb j) 1).val = (j 1).val := by
    show win1_6.index t (1 : Fin 2) * 128 + 1 * (j 1).val = _; rw [e61]; omega
  exact head_block (iblk1 V c 0 t) (V c main_v43) (V c main_v44) (V c main_arg4) (V c main_v45) (V c main_v46) (V c main_v48)
    j (((cfg1.win 6).blk t).view.emb j) (fun l => aggblock_apply V c t _ _ hr rfl) (Fin.ext hc)

/-- An index of the output array is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v49).slice (win1_6.rect t)).set ↔ _
  rw [View.set_slice_whole, Rect.mem_set_unit]
  exact Iff.rfl

/-- The blocks tile the array: row r is in the block of point r / 5000. -/
theorem cover1 (i : S50000x128.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  obtain ⟨-, -, -, -, -, -, -, -, -, -, -, -, e60, e61⟩ := index_facts1 t
  have ht : t.val = (i 0).val / 5000 := rfl
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e60, ht]; omega
  | ⟨1, _⟩ =>
    show win1_6.index t (1 : Fin 2) * 128 ≤ (i 1).val ∧ (i 1).val < win1_6.index t (1 : Fin 2) * 128 + 128
    rw [e61]; omega

/-- The region leaves the head of its six operand arrays in its output array. -/
theorem final1 (c : Dev nD) :
    (dat1 V c).arrAt 6 cfg1.N = Head.head (n := 50000) (H := 128) (K := 128) (d := 128) (V c main_v43) (V c main_v44)
      (V c main_arg4) (V c main_v45) (V c main_v46) (V c main_v48) :=
  (dat1 V c).arrAt_eq_of_cover 6 _ (fun t _ => flushed1 V c t) cover1

end Cert.KernelIdeal.Hand1

end
-- ==== Proof.RefValue.lean ====
/-
  The reference program's result, entry by entry, as the head of the aggregated features.

  The reference computes h = x · W, aggregates it over the graph (gathers, a degree count, two scatter-adds: a chain of
  host operations that is carried here as ONE function `agg` of h and the edge list and never opened), and applies the
  head rect (rect (agg + b_gcn) · W1 + b1) · W2 + b2 with each bias broadcast down the rows and each product the host's
  dot_general. Its result at node n is entry (n, 0) of that head.
-/
import proofs.«170320_j66838281061190_1_alg».proof.Proof.RefRead
import proofs.«170320_j66838281061190_1_alg».proof.Proof.Head

noncomputable section

namespace Cert.ReferenceIdeal.Hand

open Cert.ReferenceIdeal Cert.ReferenceIdeal.Gen Cert.ReferenceIdeal.ReadP
open Idealize.ShloMosaic Idealize.ShloMosaic.TcCoe Idealize.ShloMosaic.ValueIdx

/-- The graph aggregation as one function of the transformed features `h` and the edge list: the scatter-add, over the
    destination nodes, of the gathered source rows of `h` scaled by the symmetric degree normalisation. -/
def agg (h : (⟨S50000x128, .f32⟩ : BufTy).Contents (Elt Ideal)) (x1 : (⟨S2x800000, .i32⟩ : BufTy).Contents (Elt Ideal)) :
    (⟨S50000x128, .f32⟩ : BufTy).Contents (Elt Ideal) :=
  Host.scatterAdd (F := Ideal) scatter_S50000x128_S850000x1_S850000x128_1_0_0_1 (val_main_v41 (F := Ideal)) (val_main_v42 (F := Ideal) x1)
    (mulf (F := Ideal) (φ := .f32) (Host.gather gather_S50000x128_S850000x1_S850000x128_1_0_n_n_0_1_1128 h (val_main_v36 (F := Ideal) x1))
      (val_main_v39 (F := Ideal) x1))

/-- The reference's aggregate is `agg` of its transformed features. -/
theorem v43_eq (x0 : (⟨S50000x512, .f32⟩ : BufTy).Contents (Elt Ideal)) (x1 : (⟨S2x800000, .i32⟩ : BufTy).Contents (Elt Ideal)) (x2 : (⟨S512x128, .f32⟩ : BufTy).Contents (Elt Ideal)) :
    val_main_v43 (F := Ideal) x0 x1 x2 = agg (val_main_v0 (F := Ideal) x0 x2) x1 := rfl

/-- The reference's transformed features are the row-by-column product. -/
theorem v0_eq (x0 : (⟨S50000x512, .f32⟩ : BufTy).Contents (Elt Ideal)) (x2 : (⟨S512x128, .f32⟩ : BufTy).Contents (Elt Ideal)) :
    val_main_v0 (F := Ideal) x0 x2 = LibDense.prod (n := 50000) (K := 512) (d := 128) x0 x2 := by
  funext i
  unfold val_main_v0
  simp only [Host.dotGeneral]
  exact LibDense.dotGeneral_plain (M := 50000) (K := 512) (N := 128) _ x0 x2 i

/-- A one-row array broadcast down 50000 rows, at (r, j), is its entry j. -/
theorem rows_apply (b : S1x128.Idx → EReal) (i : S50000x128.Idx) :
    broadcastInDim S50000x128 ![0, 1] bcast_S1x128_S50000x128_0_1 b i = b (ix2 ⟨0, Nat.one_pos⟩ (i 1)) :=
  broadcastInDim_apply _ bcast_S1x128_S50000x128_0_1 b i (ix2 ⟨0, Nat.one_pos⟩ (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The zero word broadcast to every entry. -/
theorem zeros_apply (i : S50000x128.Idx) :
    broadcastInDim S50000x128 ![] bcast_S_S50000x128 (constant (F := Ideal) S_ .f32 0x00000000#32) i = Head.zero :=
  broadcastInDim_apply _ bcast_S_S50000x128 (constant (F := Ideal) S_ .f32 0x00000000#32) i ix0 (fun a => a.elim0)

/-- A bias row added to every row, then the larger of the sum and the zero word's value, in the host's operations. -/
theorem rect_eq (a : S50000x128.Idx → EReal) (b : S1x128.Idx → EReal) :
    maximumf (F := Ideal) (φ := .f32) (addf (F := Ideal) (φ := .f32) a (broadcastInDim S50000x128 ![0, 1] bcast_S1x128_S50000x128_0_1 b))
      (broadcastInDim S50000x128 ![] bcast_S_S50000x128 (constant (F := Ideal) S_ .f32 0x00000000#32))
      = Head.rect (n := 50000) (d := 128) a b := by
  funext i
  unfold Head.rect
  rw [maximumf_apply, addf_apply, rows_apply, zeros_apply]

theorem v47_eq (x0 : (⟨S50000x512, .f32⟩ : BufTy).Contents (Elt Ideal)) (x1 : (⟨S2x800000, .i32⟩ : BufTy).Contents (Elt Ideal)) (x2 : (⟨S512x128, .f32⟩ : BufTy).Contents (Elt Ideal)) (x3 : (⟨S128, .f32⟩ : BufTy).Contents (Elt Ideal)) :
    val_main_v47 (F := Ideal) x0 x1 x2 x3
      = Head.rect (n := 50000) (d := 128) (val_main_v43 (F := Ideal) x0 x1 x2) (val_main_v44 (F := Ideal) x3) := by
  unfold val_main_v47 val_main_v46 val_main_v45 val_main_call1_v0 val_main_call1_cst
  exact rect_eq _ _

theorem v48_eq (x0 : (⟨S50000x512, .f32⟩ : BufTy).Contents (Elt Ideal)) (x1 : (⟨S2x800000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4
      = LibDense.prod (n := 50000) (K := 128) (d := 128) (val_main_v47 (F := Ideal) x0 x1 x2 x3) x4 := by
  funext i
  unfold val_main_v48
  simp only [Host.dotGeneral]
  exact LibDense.dotGeneral_plain (M := 50000) (K := 128) (N := 128) _ _ x4 i

theorem v52_eq (x0 : (⟨S50000x512, .f32⟩ : BufTy).Contents (Elt Ideal)) (x1 : (⟨S2x800000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v52 (F := Ideal) x0 x1 x2 x3 x4 x5
      = Head.rect (n := 50000) (d := 128) (val_main_v48 (F := Ideal) x0 x1 x2 x3 x4) (val_main_v49 (F := Ideal) x5) := by
  unfold val_main_v52 val_main_v51 val_main_v50 val_main_call2_v0 val_main_call2_cst
  exact rect_eq _ _

theorem v53_eq (x0 : (⟨S50000x512, .f32⟩ : BufTy).Contents (Elt Ideal)) (x1 : (⟨S2x800000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x1, .f32⟩ : BufTy).Contents (Elt Ideal)) :
    val_main_v53 (F := Ideal) x0 x1 x2 x3 x4 x5 x6
      = LibDense.prod (n := 50000) (K := 128) (d := 1) (val_main_v52 (F := Ideal) x0 x1 x2 x3 x4 x5) x6 := by
  funext i
  unfold val_main_v53
  simp only [Host.dotGeneral]
  exact LibDense.dotGeneral_plain (M := 50000) (K := 128) (N := 1) _ _ x6 i

/-- The last bias, a one-entry array, broadcast down the one column. -/
theorem v55_apply (x7 : (⟨S1, .f32⟩ : BufTy).Contents (Elt Ideal)) (i : S50000x1.Idx) :
    val_main_v55 (F := Ideal) x7 i = val_main_v54 (F := Ideal) x7 (ix2 ⟨0, Nat.one_pos⟩ (i 1)) := by
  rw [val_main_v55_apply]
  refine congrArg (val_main_v54 (F := Ideal) x7) (funext fun a => Fin.ext ?_)
  match a with
  | ⟨0, _⟩ => rfl
  | ⟨1, _⟩ => show 0 = (i 1).val; have h : (i 1).val < 1 := (i 1).isLt; omega

/-- The reference's last [50000, 1] stage is the head of its aggregate. -/
theorem v56_eq (x0 : (⟨S50000x512, .f32⟩ : BufTy).Contents (Elt Ideal)) (x1 : (⟨S2x800000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x1, .f32⟩ : BufTy).Contents (Elt Ideal)) (x7 : (⟨S1, .f32⟩ : BufTy).Contents (Elt Ideal)) :
    val_main_v56 (F := Ideal) x0 x1 x2 x3 x4 x5 x6 x7
      = Head.head (n := 50000) (H := 128) (K := 128) (d := 1) (val_main_v43 (F := Ideal) x0 x1 x2) (val_main_v44 (F := Ideal) x3) x4
          (val_main_v49 (F := Ideal) x5) x6 (val_main_v54 (F := Ideal) x7) := by
  funext i
  unfold Head.head
  rw [val_main_v56_apply, Ideal.addf_def, v53_eq, v52_eq, v48_eq, v47_eq, v55_apply]

/-- The reference's result at node n is entry (n, 0) of that stage. -/
theorem v57_apply (x0 : (⟨S50000x512, .f32⟩ : BufTy).Contents (Elt Ideal)) (x1 : (⟨S2x800000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x1, .f32⟩ : BufTy).Contents (Elt Ideal)) (x7 : (⟨S1, .f32⟩ : BufTy).Contents (Elt Ideal)) (n : S50000.Idx) :
    val_main_v57 (F := Ideal) x0 x1 x2 x3 x4 x5 x6 x7 n
      = val_main_v56 (F := Ideal) x0 x1 x2 x3 x4 x5 x6 x7 (ix2 (n 0) ⟨0, Nat.one_pos⟩) := by
  rw [val_main_v57_apply]
  refine congrArg (val_main_v56 (F := Ideal) x0 x1 x2 x3 x4 x5 x6 x7) (funext fun a => Fin.ext ?_)
  match a with
  | ⟨0, _⟩ => exact Nat.div_one _
  | ⟨1, _⟩ => rfl

end Cert.ReferenceIdeal.Hand

end
-- ==== Proof.Region0.lean ====
/-
  The first kernel region: the feature transform `x · W`, one block of 2000 rows per grid point.

  At a point the body loads its block of `x` (2000 × 512) and the whole of `W` (512 × 128) and stores the matrix unit's
  product into a zero accumulator: entry (r, j) of the stored block is the sum over k of x-block (r, k) · W (k, j). Row r of
  the point's block of `x` is row 2000 · t + r of `x`, the output's block sits at the same rows, and the 25 blocks tile
  the 50000 rows: the region leaves the whole product in its output array. Stated at any contents the region is entered with.
-/
import proofs.«170320_j66838281061190_1_alg».proof.Proof.Gen.KernelIdeal.Frame
import proofs.«170320_j66838281061190_1_alg».proof.Proof.Head
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value is the row-by-column product of its two loaded blocks (a change of float format is the
    identity on the extended reals). -/
theorem pay0 (x0 : Vec Ideal S2000x512 .f32) (x1 : Vec Ideal S512x128 .f32) :
    k0_pay1 x0 x1 = LibDense.prod (n := 2000) (K := 512) (d := 128) x0 x1 := by
  funext i
  unfold k0_pay1
  exact LibDense.matmul_plain (M := 2000) (K := 512) (N := 128) (φ₁ := .bf16) (φ₂ := .bf16) _ _ i

/-- The printed index maps over the grid: the blocks of `x` and of the output move down the rows with the point,
    the block of `W` is the whole of it. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` at point `t`, at (r, k), is `x` at row 2000 · t + r. -/
theorem xblock_apply (c : Dev nD) (t : Fin cfg0.N) (y : S2000x512.Idx) (i : S50000x512.Idx)
    (h0 : (i 0).val = t.val * 2000 + (y 0).val) (h1 : (i 1).val = (y 1).val) :
    (iblk0 V c 0 t : Vec Ideal S2000x512 .f32) y = (V c main_arg0 : S50000x512.Idx → EReal) i := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The block of `W` at any point is `W`. -/
theorem wblock_apply (c : Dev nD) (t : Fin cfg0.N) (y : S512x128.Idx) :
    (iblk0 V c 1 t : Vec Ideal S512x128 .f32) y = (V c main_arg2 : S512x128.Idx → EReal) y := by
  obtain ⟨-, -, e2, e3, -⟩ := index_facts0 t
  unfold iblk0
  rw [View.read_apply]
  show V c main_arg2 _ = V c main_arg2 _
  congr 1
  funext a
  apply Fin.ext
  match a with
  | ⟨0, _⟩ => show win0_1.index t (0 : Fin 2) * 512 + 1 * (y 0).val = (y 0).val; rw [e2]; omega
  | ⟨1, _⟩ => show win0_1.index t (1 : Fin 2) * 128 + 1 * (y 1).val = (y 1).val; rw [e3]; omega

/-- What point `t` writes back is block `t` of the whole product. -/
theorem flushed0 (c : Dev nD) (t : Fin cfg0.N) :
    (dat0 V c).flushed 2 t = ((cfg0.win 2).blk t).view.read (Elt Ideal)
      (LibDense.prod (n := 50000) (K := 512) (d := 128) (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x512) offsets_zero, View.ld_unit_zero (S := S512x128) offsets_zero]
  rw [pay0]
  obtain ⟨-, -, -, -, e4, e5⟩ := index_facts0 t
  funext j
  show LibDense.prod (n := 2000) (K := 512) (d := 128) (iblk0 V c 0 t) (iblk0 V c 1 t) j
    = LibDense.prod (n := 50000) (K := 512) (d := 128) (V c main_arg0) (V c main_arg2) (((cfg0.win 2).blk t).view.emb j)
  have hr : ((((cfg0.win 2).blk t).view.emb j) 0).val = t.val * 2000 + (j 0).val := by
    show win0_2.index t (0 : Fin 2) * 2000 + 1 * (j 0).val = _; rw [e4]; omega
  have hc : ((((cfg0.win 2).blk t).view.emb j) 1).val = (j 1).val := by
    show win0_2.index t (1 : Fin 2) * 128 + 1 * (j 1).val = _; rw [e5]; omega
  refine Head.prod_congr _ _ _ _ j _ (fun k => ?_) (fun k => ?_)
  · exact xblock_apply V c t _ _ hr rfl
  · refine (wblock_apply V c t _).trans (congrArg (V c main_arg2 : S512x128.Idx → EReal) ?_)
    funext a
    apply Fin.ext
    match a with
    | ⟨0, _⟩ => rfl
    | ⟨1, _⟩ => exact hc.symm

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- The blocks tile the array: row r is in the block of point r / 2000. -/
theorem cover0 (i : S50000x128.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  obtain ⟨-, -, -, -, e4, e5⟩ := index_facts0 t
  have ht : t.val = (i 0).val / 2000 := rfl
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

/-- The region leaves the whole product `x · W` in its output array. -/
theorem final0 (c : Dev nD) :
    (dat0 V c).arrAt 2 cfg0.N = LibDense.prod (n := 50000) (K := 512) (d := 128) (V c main_arg0) (V c main_arg2) :=
  (dat0 V c).arrAt_eq_of_cover 2 _ (fun t _ => flushed0 V c t) cover0

end Cert.KernelIdeal.Hand

end
-- ==== Proof.Stretch1.lean ====
/-
  The host operations between the two kernel regions, first stretch: from the edge list, the source and destination
  node lists with the self-loops appended, and the degree count's comparison and reciprocal square root. From ANY buffer
  contents the stretch leaves in each of these buffers the reference's stage of the edge list it finds, and leaves the
  first region's output array as it finds it.
-/
import proofs.«170320_j66838281061190_1_alg».proof.Proof.Gen.KernelIdeal.Frame
import proofs.«170320_j66838281061190_1_alg».proof.Proof.RefValue
import Idealize.ShloMosaic.Lib.StableHlo.Run

set_option maxRecDepth 16384

noncomputable section

namespace Cert.KernelIdeal.Stretch1

open Cert.KernelIdeal Cert.KernelIdeal.Gen
open Idealize.ShloMosaic Idealize.ShloMosaic.TcCoe Idealize.SL.Sem Idealize.ShloMosaic.StableHlo

variable (Wx : Valuation τ sig (Elt Ideal))

theorem src :
    StableHlo.after hostOps1 Wx (Proc.devRef .tc main_v4)
      = Cert.ReferenceIdeal.ReadP.val_main_v4 (F := Ideal) (Wx (Proc.devRef .tc main_arg1)) := by
  after_results
  rfl

theorem dst :
    StableHlo.after hostOps1 Wx (Proc.devRef .tc main_v7)
      = Cert.ReferenceIdeal.ReadP.val_main_v7 (F := Ideal) (Wx (Proc.devRef .tc main_arg1)) := by
  after_results
  rfl

theorem degPos :
    StableHlo.after hostOps1 Wx (Proc.devRef .tc main_v13)
      = Cert.ReferenceIdeal.ReadP.val_main_v13 (F := Ideal) (Wx (Proc.devRef .tc main_arg1)) := by
  after_results
  rfl

theorem degRsqrt :
    StableHlo.after hostOps1 Wx (Proc.devRef .tc main_v14)
      = Cert.ReferenceIdeal.ReadP.val_main_v14 (F := Ideal) (Wx (Proc.devRef .tc main_arg1)) := by
  after_results
  rfl

theorem zeroWord :
    StableHlo.after hostOps1 Wx (Proc.devRef .tc main_cst_2) = Cert.ReferenceIdeal.ReadP.val_main_cst_2 (F := Ideal) := by
  after_results
  rfl

theorem keepH : StableHlo.after hostOps1 Wx (Proc.devRef .tc main_v0) = Wx (Proc.devRef .tc main_v0) := by
  after_results

end Cert.KernelIdeal.Stretch1

end
-- ==== Proof.Stretch2.lean ====
/-
  The host operations between the two kernel regions, the later stretches: the degree normalisation's `where`, then
  the gathers, the scaling and the scatter-add. From ANY buffer contents that hold the reference's stages of an edge
  list in the source list, the destination list and the normalisation's inputs, they leave the reference's aggregate
  `agg` of the first region's output array as found and of that edge list; the remaining stretches (two paddings and
  a reshape) leave the aggregate alone.
-/
import proofs.«170320_j66838281061190_1_alg».proof.Proof.Gen.KernelIdeal.Frame
import proofs.«170320_j66838281061190_1_alg».proof.Proof.RefValue
import Idealize.ShloMosaic.Lib.StableHlo.Run

set_option maxRecDepth 16384

noncomputable section

namespace Cert.KernelIdeal.Stretch2

open Cert.KernelIdeal Cert.KernelIdeal.Gen
open Idealize.ShloMosaic Idealize.ShloMosaic.TcCoe Idealize.SL.Sem Idealize.ShloMosaic.StableHlo

variable (Wx : Valuation τ sig (Elt Ideal))

variable (x1 : (⟨Cert.ReferenceIdeal.S2x800000, .i32⟩ : BufTy).Contents (Elt Ideal))

/-- `where(mask, a, z)` with a scalar `z`: the scalar broadcast to every node, then the mask's choice. -/
def whereOf (mask : (⟨S50000, .i1⟩ : BufTy).Contents (Elt Ideal)) (a : (⟨S50000, .f32⟩ : BufTy).Contents (Elt Ideal))
    (z : (⟨S_, .f32⟩ : BufTy).Contents (Elt Ideal)) : (⟨S50000, .f32⟩ : BufTy).Contents (Elt Ideal) :=
  select mask a (broadcastInDim S50000 ![] bcast_S_S50000 (id z))

/-- The called `where` function's three operations leave `whereOf` of the three buffers it reads. -/
theorem dinv_where :
    StableHlo.after hostOps1_1 Wx (Proc.devRef .tc main_v15)
      = whereOf (Wx (Proc.devRef .tc main_v13)) (Wx (Proc.devRef .tc main_v14)) (Wx (Proc.devRef .tc main_cst_2)) := by
  after_results
  rfl

/-- The reference's normalisation factor is `whereOf` of its own three stages. -/
theorem where_ref :
    whereOf (Cert.ReferenceIdeal.ReadP.val_main_v13 (F := Ideal) x1) (Cert.ReferenceIdeal.ReadP.val_main_v14 (F := Ideal) x1)
        (Cert.ReferenceIdeal.ReadP.val_main_cst_2 (F := Ideal))
      = Cert.ReferenceIdeal.ReadP.val_main_v15 (F := Ideal) x1 := rfl

theorem dinv (h13 : Wx (Proc.devRef .tc main_v13) = Cert.ReferenceIdeal.ReadP.val_main_v13 (F := Ideal) x1)
    (h14 : Wx (Proc.devRef .tc main_v14) = Cert.ReferenceIdeal.ReadP.val_main_v14 (F := Ideal) x1)
    (hc : Wx (Proc.devRef .tc main_cst_2) = Cert.ReferenceIdeal.ReadP.val_main_cst_2 (F := Ideal)) :
    StableHlo.after hostOps1_1 Wx (Proc.devRef .tc main_v15) = Cert.ReferenceIdeal.ReadP.val_main_v15 (F := Ideal) x1 := by
  rw [dinv_where, h13, h14, hc]
  exact where_ref x1

theorem keepSrc : StableHlo.after hostOps1_1 Wx (Proc.devRef .tc main_v4) = Wx (Proc.devRef .tc main_v4) := by
  after_results
theorem keepDst : StableHlo.after hostOps1_1 Wx (Proc.devRef .tc main_v7) = Wx (Proc.devRef .tc main_v7) := by
  after_results
theorem keepH : StableHlo.after hostOps1_1 Wx (Proc.devRef .tc main_v0) = Wx (Proc.devRef .tc main_v0) := by
  after_results

theorem aggregate (h4 : Wx (Proc.devRef .tc main_v4) = Cert.ReferenceIdeal.ReadP.val_main_v4 (F := Ideal) x1)
    (h7 : Wx (Proc.devRef .tc main_v7) = Cert.ReferenceIdeal.ReadP.val_main_v7 (F := Ideal) x1)
    (h15 : Wx (Proc.devRef .tc main_v15) = Cert.ReferenceIdeal.ReadP.val_main_v15 (F := Ideal) x1) :
    StableHlo.after hostOps1_2 Wx (Proc.devRef .tc main_v43)
      = Cert.ReferenceIdeal.Hand.agg (Wx (Proc.devRef .tc main_v0)) x1 := by
  after_results_simp
  rw [h4, h7, h15]
  rfl

theorem keepAgg :
    StableHlo.after hostOps1_5 (StableHlo.after hostOps1_4 (StableHlo.after hostOps1_3 Wx)) (Proc.devRef .tc main_v43)
      = Wx (Proc.devRef .tc main_v43) := by
  after_results

end Cert.KernelIdeal.Stretch2

end
-- ==== Proof.Agg.lean ====
/-
  The aggregate the second kernel region is entered with.

  Between the two regions the host gathers, scales and scatter-adds the first region's output over the graph — the same
  chain of operations the reference applies to its own transformed features. The chain is carried as ONE function (the
  reference's `agg`) and never opened; what goes into it is the same on both sides, since the first region leaves the
  row-by-column product `x · W` in its output array and the reference's dot_general is that product too.
-/
import proofs.«170320_j66838281061190_1_alg».proof.Proof.Gen.KernelIdeal.Frame
import proofs.«170320_j66838281061190_1_alg».proof.Proof.RefValue
import proofs.«170320_j66838281061190_1_alg».proof.Proof.Region0
import proofs.«170320_j66838281061190_1_alg».proof.Proof.Stretch1
import proofs.«170320_j66838281061190_1_alg».proof.Proof.Stretch2
import Idealize.ShloMosaic.Lib.StableHlo.Run

set_option maxRecDepth 16384

noncomputable section

namespace Cert.KernelIdeal.Agg

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The aggregate the second region finds is `agg` of the first region's output array and of the edge list as launched:
    the stretches of host operations walked one at a time from the first region's exit. -/
theorem agg_walk (c : Dev nD) :
    V7 m ρ c main_v43
      = Cert.ReferenceIdeal.Hand.agg (W1 m ρ c (Proc.devRef .tc main_v0)) (m ((c : Thread nD τ).loc main_arg1)) := by
  have hx1 : W1 m ρ c (Proc.devRef .tc main_arg1) = m ((c : Thread nD τ).loc main_arg1) :=
    W1_of_ne m ρ c main_arg1 (by decide)
  have h4 : StableHlo.after hostOps1_1 (StableHlo.after hostOps1 (W1 m ρ c)) (Proc.devRef .tc main_v4)
      = Cert.ReferenceIdeal.ReadP.val_main_v4 (F := Ideal) (m ((c : Thread nD τ).loc main_arg1)) :=
    (Stretch2.keepSrc _).trans ((Stretch1.src (W1 m ρ c)).trans (congrArg _ hx1))
  have h7 : StableHlo.after hostOps1_1 (StableHlo.after hostOps1 (W1 m ρ c)) (Proc.devRef .tc main_v7)
      = Cert.ReferenceIdeal.ReadP.val_main_v7 (F := Ideal) (m ((c : Thread nD τ).loc main_arg1)) :=
    (Stretch2.keepDst _).trans ((Stretch1.dst (W1 m ρ c)).trans (congrArg _ hx1))
  have h15 : StableHlo.after hostOps1_1 (StableHlo.after hostOps1 (W1 m ρ c)) (Proc.devRef .tc main_v15)
      = Cert.ReferenceIdeal.ReadP.val_main_v15 (F := Ideal) (m ((c : Thread nD τ).loc main_arg1)) :=
    Stretch2.dinv _ _ ((Stretch1.degPos (W1 m ρ c)).trans (congrArg _ hx1))
      ((Stretch1.degRsqrt (W1 m ρ c)).trans (congrArg _ hx1)) (Stretch1.zeroWord (W1 m ρ c))
  have h0 : StableHlo.after hostOps1_1 (StableHlo.after hostOps1 (W1 m ρ c)) (Proc.devRef .tc main_v0)
      = W1 m ρ c (Proc.devRef .tc main_v0) :=
    (Stretch2.keepH _).trans (Stretch1.keepH (W1 m ρ c))
  exact (Stretch2.keepAgg _).trans ((Stretch2.aggregate _ _ h4 h7 h15).trans
    (congrArg (fun h => Cert.ReferenceIdeal.Hand.agg h (m ((c : Thread nD τ).loc main_arg1))) h0))

/-- The aggregate the second region finds is the reference's aggregate of the launch arguments. -/
theorem agg_eq (c : Dev nD) :
    (V7 m ρ c main_v43 : S50000x128.Idx → EReal)
      = Cert.ReferenceIdeal.ReadP.val_main_v43 (F := Ideal) (m ((c : Thread nD τ).loc main_arg0))
          (m ((c : Thread nD τ).loc main_arg1)) (m ((c : Thread nD τ).loc main_arg2)) := by
  have h0 : (W1 m ρ c (Proc.devRef .tc main_v0) : S50000x128.Idx → EReal)
      = LibDense.prod (n := 50000) (K := 512) (d := 128) (m ((c : Thread nD τ).loc main_arg0)) (m ((c : Thread nD τ).loc main_arg2)) :=
    (W1_arr m ρ c 2).trans (Cert.KernelIdeal.Hand.final0 (V0 m ρ) c)
  rw [agg_walk, h0, Cert.ReferenceIdeal.Hand.v43_eq, Cert.ReferenceIdeal.Hand.v0_eq]

end Cert.KernelIdeal.Agg

end
-- ==== Proof.Small.lean ====
/-
  The five small operands the second kernel region is entered with, read off the host operations between the regions.

  Between the two regions the host reshapes the two bias vectors [128] to one-row arrays [1, 128], pads the last weight
  [128, 1] with 127 zero columns to [128, 128] and the last bias, reshaped to [1, 1], with 127 zero entries to [1, 128];
  the first weight is an argument as it stands. The reference instead broadcasts each bias to a one-row array. Entry by
  entry: a reshaped bias and a broadcast bias are the same row; column 0 of the padded weight is the weight's one column;
  entry (0, 0) of the padded bias is the bias's one entry.
-/
import proofs.«170320_j66838281061190_1_alg».proof.Proof.Gen.KernelIdeal.Frame
import proofs.«170320_j66838281061190_1_alg».proof.Proof.RefRead
import Idealize.ShloMosaic.Lib.StableHlo.Run
import Idealize.ShloMosaic.Lib.KernelVsHost
import Idealize.ShloMosaic.Lib.Pipeline.Value

set_option maxRecDepth 16384

noncomputable section

namespace Cert.KernelIdeal.Small

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The first bias as a one-row array: the host's reshape [128] → [1, 128] is the reference's broadcast. -/
theorem bg_eq (c : Dev nD) :
    (V7 m ρ c main_v44 : S1x128.Idx → EReal)
      = Cert.ReferenceIdeal.ReadP.val_main_v44 (F := Ideal) (m ((c : Thread nD τ).loc main_arg3)) := by
  have e : (V7 m ρ c main_v44 : S1x128.Idx → EReal)
      = shapeCast S1x128 (W1 m ρ c (Proc.devRef .tc main_arg3) : S128.Idx → EReal) shapeCasts_S128_S1x128 := by
    show StableHlo.after hostOps1_5 (StableHlo.after hostOps1_4 (StableHlo.after hostOps1_3 (StableHlo.after hostOps1_2 (StableHlo.after hostOps1_1 (StableHlo.after hostOps1 (W1 m ρ c)))))) (Proc.devRef .tc main_v44) = _
    after_results_simp
    rfl
  rw [e, W1_of_ne m ρ c main_arg3 (by decide)]
  funext i
  rw [Cert.ReferenceIdeal.ReadP.val_main_v44_apply]
  refine (shapeCast_addUnit_apply ![128] _ shapeCasts_S128_S1x128 i).trans ?_
  refine congrArg (m ((c : Thread nD τ).loc main_arg3) : S128.Idx → EReal) (funext fun a => ?_)
  match a with
  | ⟨0, _⟩ => rfl

/-- The second bias as a one-row array, likewise. -/
theorem b1_eq (c : Dev nD) :
    (V7 m ρ c main_v45 : S1x128.Idx → EReal)
      = Cert.ReferenceIdeal.ReadP.val_main_v49 (F := Ideal) (m ((c : Thread nD τ).loc main_arg5)) := by
  have e : (V7 m ρ c main_v45 : S1x128.Idx → EReal)
      = shapeCast S1x128 (W1 m ρ c (Proc.devRef .tc main_arg5) : S128.Idx → EReal) shapeCasts_S128_S1x128 := by
    show StableHlo.after hostOps1_5 (StableHlo.after hostOps1_4 (StableHlo.after hostOps1_3 (StableHlo.after hostOps1_2 (StableHlo.after hostOps1_1 (StableHlo.after hostOps1 (W1 m ρ c)))))) (Proc.devRef .tc main_v45) = _
    after_results_simp
    rfl
  rw [e, W1_of_ne m ρ c main_arg5 (by decide)]
  funext i
  rw [Cert.ReferenceIdeal.ReadP.val_main_v49_apply]
  refine (shapeCast_addUnit_apply ![128] _ shapeCasts_S128_S1x128 i).trans ?_
  refine congrArg (m ((c : Thread nD τ).loc main_arg5) : S128.Idx → EReal) (funext fun a => ?_)
  match a with
  | ⟨0, _⟩ => rfl

/-- The first weight is the argument as launched. -/
theorem w1_eq (c : Dev nD) : V7 m ρ c main_arg4 = m ((c : Thread nD τ).loc main_arg4) := by
  have e : V7 m ρ c main_arg4 = W1 m ρ c (Proc.devRef .tc main_arg4) := by
    show StableHlo.after hostOps1_5 (StableHlo.after hostOps1_4 (StableHlo.after hostOps1_3 (StableHlo.after hostOps1_2 (StableHlo.after hostOps1_1 (StableHlo.after hostOps1 (W1 m ρ c)))))) (Proc.devRef .tc main_arg4) = _
    after_results_simp
  rw [e, W1_of_ne m ρ c main_arg4 (by decide)]

/-- Column 0 of the padded last weight is the weight's one column. -/
theorem w2_apply (c : Dev nD) (k : Fin 128) :
    (V7 m ρ c main_v46 : S128x128.Idx → EReal) (ix2 k ⟨0, by decide⟩)
      = (m ((c : Thread nD τ).loc main_arg6) : S128x1.Idx → EReal) (ix2 k ⟨0, Nat.one_pos⟩) := by
  have e : (V7 m ρ c main_v46 : S128x128.Idx → EReal)
      = pad S128x128 ![0, 0] ![0, 127] ![0, 0] (W1 m ρ c (Proc.devRef .tc main_arg6) : S128x1.Idx → EReal)
          (sitofp (F := Ideal) .f32 (constantI S_ 32 0#32)) pads_S128x1_S128x128_000_01270 h_S_ := by
    show StableHlo.after hostOps1_5 (StableHlo.after hostOps1_4 (StableHlo.after hostOps1_3 (StableHlo.after hostOps1_2 (StableHlo.after hostOps1_1 (StableHlo.after hostOps1 (W1 m ρ c)))))) (Proc.devRef .tc main_v46) = _
    after_results_simp
    rfl
  rw [e, W1_of_ne m ρ c main_arg6 (by decide)]
  exact pad_apply_of_inside ![0, 0] ![0, 127] ![0, 0] _ _ pads_S128x1_S128x128_000_01270 h_S_ _ (ix2 k ⟨0, Nat.one_pos⟩)
    (fun a => match a with
      | ⟨0, _⟩ => by show k.val = 0 + k.val * (0 + 1); omega
      | ⟨1, _⟩ => by show 0 = 0 + 0 * (0 + 1); rfl)

/-- Entry (0, 0) of the padded last bias is the bias's one entry, which is entry (0, 0) of the reference's broadcast. -/
theorem b2_apply (c : Dev nD) :
    (V7 m ρ c main_v48 : S1x128.Idx → EReal) (ix2 ⟨0, Nat.one_pos⟩ ⟨0, by decide⟩)
      = Cert.ReferenceIdeal.ReadP.val_main_v54 (F := Ideal) (m ((c : Thread nD τ).loc main_arg7)) (ix2 ⟨0, Nat.one_pos⟩ ⟨0, Nat.one_pos⟩) := by
  have e : (V7 m ρ c main_v48 : S1x128.Idx → EReal)
      = pad S1x128 ![0, 0] ![0, 127] ![0, 0]
          (shapeCast S1x1 (W1 m ρ c (Proc.devRef .tc main_arg7) : S1.Idx → EReal) shapeCasts_S1_S1x1)
          (sitofp (F := Ideal) .f32 (constantI S_ 32 0#32)) pads_S1x1_S1x128_000_01270 h_S_ := by
    show StableHlo.after hostOps1_5 (StableHlo.after hostOps1_4 (StableHlo.after hostOps1_3 (StableHlo.after hostOps1_2 (StableHlo.after hostOps1_1 (StableHlo.after hostOps1 (W1 m ρ c)))))) (Proc.devRef .tc main_v48) = _
    after_results_simp
    rfl
  rw [e, W1_of_ne m ρ c main_arg7 (by decide), Cert.ReferenceIdeal.ReadP.val_main_v54_apply]
  refine (pad_apply_of_inside ![0, 0] ![0, 127] ![0, 0] _ _ pads_S1x1_S1x128_000_01270 h_S_ _
    (ix2 ⟨0, Nat.one_pos⟩ ⟨0, Nat.one_pos⟩) (fun a => match a with
      | ⟨0, _⟩ => by show 0 = 0 + 0 * (0 + 1); rfl
      | ⟨1, _⟩ => by show 0 = 0 + 0 * (0 + 1); rfl)).trans ?_
  refine (shapeCast_addUnit_apply ![1] _ shapeCasts_S1_S1x1 _).trans ?_
  refine congrArg (m ((c : Thread nD τ).loc main_arg7) : S1.Idx → EReal) (funext fun a => ?_)
  match a with
  | ⟨0, _⟩ => rfl

end Cert.KernelIdeal.Small

end
-- ==== Proof.KernelValue.lean ====
/-
  The idealized kernel program's result as a function of its arguments.

  The host's last two operations take column 0 of the second region's output array: the result at node n is entry
  (n, 0) of that array. The second region leaves there the head of the six arrays it was entered with: the graph
  aggregate of the first region's product `x · W` — the reference's aggregate —, the two bias rows, the first weight, and
  the last weight and bias padded with zero columns. Entry (n, 0) of a head reads column 0 of the last weight and entry 0
  of the last bias only, and the padding leaves those as they were: the result is the reference's result.
-/
import proofs.«170320_j66838281061190_1_alg».proof.Proof.Gen.KernelIdeal.Frame
import proofs.«170320_j66838281061190_1_alg».proof.Proof.Region1
import proofs.«170320_j66838281061190_1_alg».proof.Proof.Agg
import proofs.«170320_j66838281061190_1_alg».proof.Proof.Small
import Idealize.ShloMosaic.Lib.StableHlo.Run
import Idealize.ShloMosaic.Lib.Pipeline.Value

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result at node n is entry (n, 0) of the second region's output array. -/
theorem result_apply (c : Dev nD) (n : S50000.Idx) :
    (W9 m ρ c (Proc.devRef .tc main_v51) : S50000.Idx → EReal) n
      = (W8 m ρ c (Proc.devRef .tc main_v49) : S50000x128.Idx → EReal) (ix2 (n 0) ⟨0, by decide⟩) := by
  have e : (W9 m ρ c (Proc.devRef .tc main_v51) : S50000.Idx → EReal)
      = shapeCast S50000 (extractStridedSlice S50000x1 ![0, 0] (W8 m ρ c (Proc.devRef .tc main_v49) : S50000x128.Idx → EReal)
          slices_S50000x128_S50000x1_0_0) shapeCasts_S50000x1_S50000 := by
    show StableHlo.after hostOps2 (W8 m ρ c) (Proc.devRef .tc main_v51) = _
    after_results
    rfl
  rw [e]
  refine (shapeCast_apply _ shapeCasts_S50000x1_S50000 n (ix2 (n 0) ⟨0, Nat.one_pos⟩) ?_).trans ?_
  · rewrite [Shape.rowMajor_val_two, Shape.rowMajor_val_one]
    show (n 0).val * 1 + 0 = (n 0).val
    omega
  · exact extractStridedSlice_apply ![0, 0] _ slices_S50000x128_S50000x1_0_0 _ (ix2 (n 0) ⟨0, by decide⟩) (fun a => match a with
      | ⟨0, _⟩ => by show (n 0).val = 0 + (n 0).val; omega
      | ⟨1, _⟩ => by show 0 = 0 + 0; rfl)

/-- The program's result is the reference's result term of the launch arguments. -/
theorem value_eq (c : Dev nD) :
    (W9 m ρ c (Proc.devRef .tc main_v51) : S50000.Idx → EReal)
      = Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext n
  have h8 : (W8 m ρ c (Proc.devRef .tc main_v49) : S50000x128.Idx → EReal)
      = Head.head (n := 50000) (H := 128) (K := 128) (d := 128) (V7 m ρ c main_v43) (V7 m ρ c main_v44) (V7 m ρ c main_arg4)
          (V7 m ρ c main_v45) (V7 m ρ c main_v46) (V7 m ρ c main_v48) :=
    (W8_arr m ρ c 6).trans (Cert.KernelIdeal.Hand1.final1 (V7 m ρ) c)
  rw [result_apply, h8, Cert.KernelIdeal.Agg.agg_eq, Cert.KernelIdeal.Small.bg_eq, Cert.KernelIdeal.Small.w1_eq,
    Cert.KernelIdeal.Small.b1_eq, Cert.ReferenceIdeal.Hand.v57_apply, Cert.ReferenceIdeal.Hand.v56_eq]
  exact Head.head_congr _ _ _ _ _ _ _ _ _ (n 0) (n 0) ⟨0, by decide⟩ ⟨0, Nat.one_pos⟩ (fun _ => rfl)
    (Cert.KernelIdeal.Small.w2_apply m ρ c) (Cert.KernelIdeal.Small.b2_apply m ρ c)

end Cert.KernelIdeal.Result

end
-- ==== Proof.lean ====
/-
  A graph-convolution layer with a two-layer head, as a kernel program and as its jnp reference, on the extended reals.

  Both programs compute  y = (rect (rect (A(x · W) + b_gcn) · W1 + b1) · W2 + b2)[:, 0],  where A is the graph
  aggregation (self-loops added, symmetric degree normalisation, a gather and a scatter-add over the edges), a bias is
  added to every row and rect is the larger of an entry and 0. The kernel program computes x · W in a first kernel region
  (2000 rows per grid point), applies A on the host with the reference's own operations, and computes the head in a second
  kernel region (5000 rows per grid point) with W2 and b2 padded by zero columns to 128 lanes, keeping column 0.

  On the extended reals a change of float format is the identity and each matrix product, tiled or not, is the finite sum
  over the contraction index, so no finiteness is used: the first region's output array is x · W (Region0), the aggregation
  is one shared function of it (Agg), the second region's output array is the head of its operands (Region1), column 0 of
  which reads column 0 of the padded weight and entry 0 of the padded bias only (Small, KernelValue) — which is the
  reference's result term (RefValue). The three frames are the generated ones (the reference's from its run); the ideal
  pass rewrote nothing, so `preserves` has nothing to state.
-/
import proofs.«170320_j66838281061190_1_alg».proof.Defs
import proofs.«170320_j66838281061190_1_alg».proof.Proof.Gen.Kernel
import proofs.«170320_j66838281061190_1_alg».proof.Proof.Gen.Kernel.Skeleton
import proofs.«170320_j66838281061190_1_alg».proof.Proof.Gen.Kernel.Launch
import proofs.«170320_j66838281061190_1_alg».proof.Proof.Gen.Kernel.Points
import proofs.«170320_j66838281061190_1_alg».proof.Proof.Gen.Kernel.Frame
import proofs.«170320_j66838281061190_1_alg».proof.Proof.Gen.KernelIdeal
import proofs.«170320_j66838281061190_1_alg».proof.Proof.Gen.KernelIdeal.Skeleton
import proofs.«170320_j66838281061190_1_alg».proof.Proof.Gen.KernelIdeal.Launch
import proofs.«170320_j66838281061190_1_alg».proof.Proof.Gen.KernelIdeal.Points
import proofs.«170320_j66838281061190_1_alg».proof.Proof.Gen.KernelIdeal.Frame
import proofs.«170320_j66838281061190_1_alg».proof.Proof.Gen.ReferenceIdeal
import proofs.«170320_j66838281061190_1_alg».proof.Proof.Gen.Pre_finite_inputs
import proofs.«170320_j66838281061190_1_alg».proof.Proof.RefRun
import proofs.«170320_j66838281061190_1_alg».proof.Proof.RefRead
import proofs.«170320_j66838281061190_1_alg».proof.Proof.KernelRun
import proofs.«170320_j66838281061190_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs, run from memories agreeing on the arguments, end with the result array at the reference's result
    term of the arguments: the kernel program's last boundary contents are that term (`value_eq`), the reference's run
    is stated at it. -/
theorem algebraic : Cert.algebraic_KernelIdeal_ReferenceIdeal := by
  intro m ρ m' ρ' _ hagree
  refine ⟨fun c => Cert.ReferenceIdeal.ReadP.val_main_v57 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.value_eq m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.ReadP.val_main_v57_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
